-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S2x625000 : Shape := ⟨2, ![2, 625000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x128 .f32) (main_arg1 : FVec F S128x64 .f32) (main_arg2 : FVec F S64 .f32) (main_arg3 : IVec S2x625000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x128 : Shape := ⟨2, ![100000, 128]⟩
abbrev S128x64 : Shape := ⟨2, ![128, 64]⟩
abbrev S64 : Shape := ⟨1, ![64]⟩
abbrev S2x625000 : Shape := ⟨2, ![2, 625000]⟩
abbrev S1x625000 : Shape := ⟨2, ![1, 625000]⟩
abbrev S625000 : Shape := ⟨1, ![625000]⟩
abbrev S_ : Shape := ⟨0, ![]⟩
abbrev S100000 : Shape := ⟨1, ![100000]⟩
abbrev S625000x1 : Shape := ⟨2, ![625000, 1]⟩
abbrev S625000x128 : Shape := ⟨2, ![625000, 128]⟩
abbrev S1x64 : Shape := ⟨2, ![1, 64]⟩
abbrev S100000x64 : Shape := ⟨2, ![100000, 64]⟩
abbrev S2000x128 : Shape := ⟨2, ![2000, 128]⟩
abbrev S2000x64 : Shape := ⟨2, ![2000, 64]⟩

abbrev nBuf : Space → Nat
  | .hbm => 94
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S2x625000, .i32⟩
  | .hbm, ⟨4, _⟩ => ⟨S1x625000, .i32⟩
  | .hbm, ⟨5, _⟩ => ⟨S625000, .i32⟩
  | .hbm, ⟨6, _⟩ => ⟨S1x625000, .i32⟩
  | .hbm, ⟨7, _⟩ => ⟨S625000, .i32⟩
  | .hbm, ⟨8, _⟩ => ⟨S_, .f32⟩
  | .hbm, ⟨9, _⟩ => ⟨S625000, .f32⟩
  | .hbm, ⟨10, _⟩ => ⟨S_, .f32⟩
  | .hbm, ⟨11, _⟩ => ⟨S100000, .f32⟩
  | .hbm, ⟨12, _⟩ => ⟨S625000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .i1⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S625000, .i32⟩
  | .hbm, ⟨27, _⟩ => ⟨S625000, .i1⟩
  | .hbm, ⟨28, _⟩ => ⟨S_, .i32⟩
  | .hbm, ⟨29, _⟩ => ⟨S625000, .i32⟩
  | .hbm, ⟨30, _⟩ => ⟨S625000, .i32⟩
  | .hbm, ⟨31, _⟩ => ⟨S625000, .i32⟩
  | .hbm, ⟨32, _⟩ => ⟨S625000x1, .i32⟩
  | .hbm, ⟨33, _⟩ => ⟨S625000, .f32⟩
  | .hbm, ⟨34, _⟩ => ⟨S_, .i32⟩
  | .hbm, ⟨35, _⟩ => ⟨S625000, .i32⟩
  | .hbm, ⟨36, _⟩ => ⟨S625000, .i1⟩
  | .hbm, ⟨37, _⟩ => ⟨S_, .i32⟩
  | .hbm, ⟨38, _⟩ => ⟨S625000, .i32⟩
  | .hbm, ⟨39, _⟩ => ⟨S625000, .i32⟩
  | .hbm, ⟨40, _⟩ => ⟨S625000, .i32⟩
  | .hbm, ⟨41, _⟩ => ⟨S625000x1, .i32⟩
  | .hbm, ⟨42, _⟩ => ⟨S625000, .f32⟩
  | .hbm, ⟨43, _⟩ => ⟨S625000, .f32⟩
  | .hbm, ⟨44, _⟩ => ⟨S_, .i32⟩
  | .hbm, ⟨45, _⟩ => ⟨S625000, .i32⟩
  | .hbm, ⟨46, _⟩ => ⟨S625000, .i1⟩
  | .hbm, ⟨47, _⟩ => ⟨S_, .i32⟩
  | .hbm, ⟨48, _⟩ => ⟨S625000, .i32⟩
  | .hbm, ⟨49, _⟩ => ⟨S625000, .i32⟩
  | .hbm, ⟨50, _⟩ => ⟨S625000, .i32⟩
  | .hbm, ⟨51, _⟩ => ⟨S625000x1, .i32⟩
  | .hbm, ⟨52, _⟩ => ⟨S625000x128, .f32⟩
  | .hbm, ⟨53, _⟩ => ⟨S625000x1, .f32⟩
  | .hbm, ⟨54, _⟩ => ⟨S625000x128, .f32⟩
  | .hbm, ⟨55, _⟩ => ⟨S625000x128, .f32⟩
  | .hbm, ⟨56, _⟩ => ⟨S_, .f32⟩
  | .hbm, ⟨57, _⟩ => ⟨S100000x128, .f32⟩
  | .hbm, ⟨58, _⟩ => ⟨S625000x1, .i32⟩
  | .hbm, ⟨59, _⟩ => ⟨S100000x128, .f32⟩
  | .hbm, ⟨60, _⟩ => ⟨S_, .i32⟩
  | .hbm, ⟨61, _⟩ => ⟨S625000, .i32⟩
  | .hbm, ⟨62, _⟩ => ⟨S625000, .i1⟩
  | .hbm, ⟨63, _⟩ => ⟨S_, .i32⟩
  | .hbm, ⟨64, _⟩ => ⟨S625000, .i32⟩
  | .hbm, ⟨65, _⟩ => ⟨S625000, .i32⟩
  | .hbm, ⟨66, _⟩ => ⟨S625000, .i32⟩
  | .hbm, ⟨67, _⟩ => ⟨S625000x1, .i32⟩
  | .hbm, ⟨68, _⟩ => ⟨S625000x128, .f32⟩
  | .hbm, ⟨69, _⟩ => ⟨S625000x1, .f32⟩
  | .hbm, ⟨70, _⟩ => ⟨S625000x128, .f32⟩
  | .hbm, ⟨71, _⟩ => ⟨S625000x128, .f32⟩
  | .hbm, ⟨72, _⟩ => ⟨S_, .f32⟩
  | .hbm, ⟨73, _⟩ => ⟨S100000x128, .f32⟩
  | .hbm, ⟨74, _⟩ => ⟨S625000x1, .i32⟩
  | .hbm, ⟨75, _⟩ => ⟨S100000x128, .f32⟩
  | .hbm, ⟨76, _⟩ => ⟨S_, .i32⟩
  | .hbm, ⟨77, _⟩ => ⟨S625000, .i32⟩
  | .hbm, ⟨78, _⟩ => ⟨S625000, .i1⟩
  | .hbm, ⟨79, _⟩ => ⟨S_, .i32⟩
  | .hbm, ⟨80, _⟩ => ⟨S625000, .i32⟩
  | .hbm, ⟨81, _⟩ => ⟨S625000, .i32⟩
  | .hbm, ⟨82, _⟩ => ⟨S625000, .i32⟩
  | .hbm, ⟨83, _⟩ => ⟨S625000x1, .i32⟩
  | .hbm, ⟨84, _⟩ => ⟨S625000x128, .f32⟩
  | .hbm, ⟨85, _⟩ => ⟨S625000x1, .f32⟩
  | .hbm, ⟨86, _⟩ => ⟨S625000x128, .f32⟩
  | .hbm, ⟨87, _⟩ => ⟨S625000x128, .f32⟩
  | .hbm, ⟨88, _⟩ => ⟨S_, .f32⟩
  | .hbm, ⟨89, _⟩ => ⟨S100000x128, .f32⟩
  | .hbm, ⟨90, _⟩ => ⟨S625000x1, .i32⟩
  | .hbm, ⟨91, _⟩ => ⟨S100000x128, .f32⟩
  | .hbm, ⟨92, _⟩ => ⟨S1x64, .f32⟩
  | .hbm, ⟨93, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x64, .f32⟩
  | .local _ .vmem, ⟨9, _⟩ => ⟨S1x64, .f32⟩
  | .local _ .vmem, ⟨10, _⟩ => ⟨S2000x64, .f32⟩
  | .local _ .vmem, ⟨11, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_c_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_10 : Ref sig .tc := ⟨.hbm, 60, rfl⟩
abbrev main_v42 : Ref sig .tc := ⟨.hbm, 61, rfl⟩
abbrev main_v43 : Ref sig .tc := ⟨.hbm, 62, rfl⟩
abbrev main_c_11 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_13 : Ref sig .tc := ⟨.hbm, 76, rfl⟩
abbrev main_v55 : Ref sig .tc := ⟨.hbm, 77, rfl⟩
abbrev main_v56 : Ref sig .tc := ⟨.hbm, 78, rfl⟩
abbrev main_c_14 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_15 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S_S100000 : S_.BroadcastsInDim S100000 (![] : Fin 0 → Fin S100000.rank)
  bcast_S625000_S625000x1_0 : S625000.BroadcastsInDim S625000x1 (![0] : Fin 1 → Fin S625000x1.rank)
  bcast_S625000x1_S625000x128_0_1 : S625000x1.BroadcastsInDim S625000x128 (![0, 1] : Fin 2 → Fin S625000x128.rank)
  bcast_S_S100000x128 : S_.BroadcastsInDim S100000x128 (![] : Fin 0 → Fin S100000x128.rank)
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S100000_S625000x1_S625000_n_0_0_1_wf : ScatterDims.WF S100000 S625000x1 S625000 [] [0] [0] 1
  gather_S100000_S625000x1_S625000_n_0_n_n_0_1_1_wf : GatherDims.WF S100000 S625000x1 S625000 [] [0] [] [0] [] 1 ![1]
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S100000x64.size a
  hwx0_6 : ∀ i : grid0.Coords, EltTy.bits .f32 = 32 ∨ (Rect.block (s := S100000x64) S2000x64.size (cc0_transform_6 i) (hinb0_6 i)).WholeWords (EltTy.packing .f32)

variable [Facts₀]

def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def gather_S100000_S625000x1_S625000_n_0_n_n_0_1_1 : GatherDims S100000 S625000x1 S625000 where
  offsetDims := []
  collapsedSliceDims := [0]
  operandBatchingDims := []
  startIndicesBatchingDims := []
  startIndexMap := [0]
  indexVectorDim := 1
  sliceSizes := ![1]
  wf := gather_S100000_S625000x1_S625000_n_0_n_n_0_1_1_wf
def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v54) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v67) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v68) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v69) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S2x625000 : Shape := ⟨2, ![2, 625000]⟩
abbrev S1x625000 : Shape := ⟨2, ![1, 625000]⟩
abbrev S625000 : Shape := ⟨1, ![625000]⟩
abbrev S_ : Shape := ⟨0, ![]⟩
abbrev S100000 : Shape := ⟨1, ![100000]⟩
abbrev S625000x1 : Shape := ⟨2, ![625000, 1]⟩
abbrev S625000x128 : Shape := ⟨2, ![625000, 128]⟩
abbrev S100000x64 : Shape := ⟨2, ![100000, 64]⟩
abbrev S1x64 : Shape := ⟨2, ![1, 64]⟩

abbrev nBuf : Space → Nat
  | .hbm => 102
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S2x625000, .i32⟩
  | .hbm, ⟨4, _⟩ => ⟨S1x625000, .i32⟩
  | .hbm, ⟨5, _⟩ => ⟨S625000, .i32⟩
  | .hbm, ⟨6, _⟩ => ⟨S1x625000, .i32⟩
  | .hbm, ⟨7, _⟩ => ⟨S625000, .i32⟩
  | .hbm, ⟨8, _⟩ => ⟨S_, .f32⟩
  | .hbm, ⟨9, _⟩ => ⟨S625000, .f32⟩
  | .hbm, ⟨10, _⟩ => ⟨S_, .f32⟩
  | .hbm, ⟨11, _⟩ => ⟨S100000, .f32⟩
  | .hbm, ⟨12, _⟩ => ⟨S625000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .i1⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S625000, .i32⟩
  | .hbm, ⟨27, _⟩ => ⟨S625000, .i1⟩
  | .hbm, ⟨28, _⟩ => ⟨S_, .i32⟩
  | .hbm, ⟨29, _⟩ => ⟨S625000, .i32⟩
  | .hbm, ⟨30, _⟩ => ⟨S625000, .i32⟩
  | .hbm, ⟨31, _⟩ => ⟨S625000, .i32⟩
  | .hbm, ⟨32, _⟩ => ⟨S625000x1, .i32⟩
  | .hbm, ⟨33, _⟩ => ⟨S625000, .f32⟩
  | .hbm, ⟨34, _⟩ => ⟨S_, .i32⟩
  | .hbm, ⟨35, _⟩ => ⟨S625000, .i32⟩
  | .hbm, ⟨36, _⟩ => ⟨S625000, .i1⟩
  | .hbm, ⟨37, _⟩ => ⟨S_, .i32⟩
  | .hbm, ⟨38, _⟩ => ⟨S625000, .i32⟩
  | .hbm, ⟨39, _⟩ => ⟨S625000, .i32⟩
  | .hbm, ⟨40, _⟩ => ⟨S625000, .i32⟩
  | .hbm, ⟨41, _⟩ => ⟨S625000x1, .i32⟩
  | .hbm, ⟨42, _⟩ => ⟨S625000, .f32⟩
  | .hbm, ⟨43, _⟩ => ⟨S625000, .f32⟩
  | .hbm, ⟨44, _⟩ => ⟨S_, .i32⟩
  | .hbm, ⟨45, _⟩ => ⟨S625000, .i32⟩
  | .hbm, ⟨46, _⟩ => ⟨S625000, .i1⟩
  | .hbm, ⟨47, _⟩ => ⟨S_, .i32⟩
  | .hbm, ⟨48, _⟩ => ⟨S625000, .i32⟩
  | .hbm, ⟨49, _⟩ => ⟨S625000, .i32⟩
  | .hbm, ⟨50, _⟩ => ⟨S625000, .i32⟩
  | .hbm, ⟨51, _⟩ => ⟨S625000x1, .i32⟩
  | .hbm, ⟨52, _⟩ => ⟨S625000x128, .f32⟩
  | .hbm, ⟨53, _⟩ => ⟨S625000x1, .f32⟩
  | .hbm, ⟨54, _⟩ => ⟨S625000x128, .f32⟩
  | .hbm, ⟨55, _⟩ => ⟨S625000x128, .f32⟩
  | .hbm, ⟨56, _⟩ => ⟨S_, .f32⟩
  | .hbm, ⟨57, _⟩ => ⟨S100000x128, .f32⟩
  | .hbm, ⟨58, _⟩ => ⟨S625000x1, .i32⟩
  | .hbm, ⟨59, _⟩ => ⟨S100000x128, .f32⟩
  | .hbm, ⟨60, _⟩ => ⟨S100000x128, .f32⟩
  | .hbm, ⟨61, _⟩ => ⟨S_, .i32⟩
  | .hbm, ⟨62, _⟩ => ⟨S625000, .i32⟩
  | .hbm, ⟨63, _⟩ => ⟨S625000, .i1⟩
  | .hbm, ⟨64, _⟩ => ⟨S_, .i32⟩
  | .hbm, ⟨65, _⟩ => ⟨S625000, .i32⟩
  | .hbm, ⟨66, _⟩ => ⟨S625000, .i32⟩
  | .hbm, ⟨67, _⟩ => ⟨S625000, .i32⟩
  | .hbm, ⟨68, _⟩ => ⟨S625000x1, .i32⟩
  | .hbm, ⟨69, _⟩ => ⟨S625000x128, .f32⟩
  | .hbm, ⟨70, _⟩ => ⟨S625000x1, .f32⟩
  | .hbm, ⟨71, _⟩ => ⟨S625000x128, .f32⟩
  | .hbm, ⟨72, _⟩ => ⟨S625000x128, .f32⟩
  | .hbm, ⟨73, _⟩ => ⟨S_, .f32⟩
  | .hbm, ⟨74, _⟩ => ⟨S100000x128, .f32⟩
  | .hbm, ⟨75, _⟩ => ⟨S625000x1, .i32⟩
  | .hbm, ⟨76, _⟩ => ⟨S100000x128, .f32⟩
  | .hbm, ⟨77, _⟩ => ⟨S100000x128, .f32⟩
  | .hbm, ⟨78, _⟩ => ⟨S_, .i32⟩
  | .hbm, ⟨79, _⟩ => ⟨S625000, .i32⟩
  | .hbm, ⟨80, _⟩ => ⟨S625000, .i1⟩
  | .hbm, ⟨81, _⟩ => ⟨S_, .i32⟩
  | .hbm, ⟨82, _⟩ => ⟨S625000, .i32⟩
  | .hbm, ⟨83, _⟩ => ⟨S625000, .i32⟩
  | .hbm, ⟨84, _⟩ => ⟨S625000, .i32⟩
  | .hbm, ⟨85, _⟩ => ⟨S625000x1, .i32⟩
  | .hbm, ⟨86, _⟩ => ⟨S625000x128, .f32⟩
  | .hbm, ⟨87, _⟩ => ⟨S625000x1, .f32⟩
  | .hbm, ⟨88, _⟩ => ⟨S625000x128, .f32⟩
  | .hbm, ⟨89, _⟩ => ⟨S625000x128, .f32⟩
  | .hbm, ⟨90, _⟩ => ⟨S_, .f32⟩
  | .hbm, ⟨91, _⟩ => ⟨S100000x128, .f32⟩
  | .hbm, ⟨92, _⟩ => ⟨S625000x1, .i32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S100000x128, .f32⟩
  | .hbm, ⟨97, _⟩ => ⟨S100000x128, .f32⟩
  | .hbm, ⟨98, _⟩ => ⟨S100000x64, .f32⟩
  | .hbm, ⟨99, _⟩ => ⟨S1x64, .f32⟩
  | .hbm, ⟨100, _⟩ => ⟨S100000x64, .f32⟩
  | .hbm, ⟨101, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_c_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_10 : Ref sig .tc := ⟨.hbm, 61, rfl⟩
abbrev main_v43 : Ref sig .tc := ⟨.hbm, 62, rfl⟩
abbrev main_v44 : Ref sig .tc := ⟨.hbm, 63, rfl⟩
abbrev main_c_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_13 : Ref sig .tc := ⟨.hbm, 78, rfl⟩
abbrev main_v57 : Ref sig .tc := ⟨.hbm, 79, rfl⟩
abbrev main_v58 : Ref sig .tc := ⟨.hbm, 80, rfl⟩
abbrev main_c_14 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_15 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_16 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S_S100000 : S_.BroadcastsInDim S100000 (![] : Fin 0 → Fin S100000.rank)
  bcast_S625000_S625000x1_0 : S625000.BroadcastsInDim S625000x1 (![0] : Fin 1 → Fin S625000x1.rank)
  bcast_S625000x1_S625000x128_0_1 : S625000x1.BroadcastsInDim S625000x128 (![0, 1] : Fin 2 → Fin S625000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S625000x1_S625000_n_0_0_1_wf : ScatterDims.WF S100000 S625000x1 S625000 [] [0] [0] 1
  gather_S100000_S625000x1_S625000_n_0_n_n_0_1_1_wf : GatherDims.WF S100000 S625000x1 S625000 [] [0] [] [0] [] 1 ![1]
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  dot_S100000x128_S128x64_S100000x64_1_0_0_1_n_n_wf : DotDims.WF S100000x128 S128x64 S100000x64 [1] [0] [0] [1] [] []

variable [Facts₀]

def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def gather_S100000_S625000x1_S625000_n_0_n_n_0_1_1 : GatherDims S100000 S625000x1 S625000 where
  offsetDims := []
  collapsedSliceDims := [0]
  operandBatchingDims := []
  startIndicesBatchingDims := []
  startIndexMap := [0]
  indexVectorDim := 1
  sliceSizes := ![1]
  wf := gather_S100000_S625000x1_S625000_n_0_n_n_0_1_1_wf
def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibQuarter.lean ====
/-
  Dividing by four is multiplying by a quarter, on every extended real.

  The f32 word 0x40800000 is the real 4 and the word 0x3E800000 is the real 1/4 (both dyadic, so their binary values are
  exact). At the ideal instance the host's quotient of an extended real `x` by a nonzero REAL `y` is the product of `x`
  with the real `1 / y` — at the infinities too — so `x / 4 = x · (1/4)` with no finiteness assumption.
-/
import Idealize.ShloMosaic.PureOps.Ideal

noncomputable section

namespace Cert.LibQuarter

open Idealize.ShloMosaic

/-- The f32 word of `4.0` denotes the real 4. -/
theorem ofBits_four : Ideal.ofBits .f32 0x40800000#32 = ((4 : ℝ) : EReal) := by
  simp [Ideal.ofBits, Ideal.ieee, -EReal.coe_mul]; norm_num

/-- The f32 word of `0.25` denotes the real 1/4. -/
theorem ofBits_quarter : Ideal.ofBits .f32 0x3E800000#32 = ((1 / 4 : ℝ) : EReal) := by
  simp [Ideal.ofBits, Ideal.ieee, -EReal.coe_mul]; norm_num

/-- On every extended real, the ideal quotient by the word of 4 is the product with the word of 1/4. -/
theorem div_four_eq_mul_quarter (x : EReal) :
    Ideal.div x (Ideal.ofBits .f32 0x40800000#32) = x * Ideal.ofBits .f32 0x3E800000#32 := by
  rw [ofBits_four, ofBits_quarter, Ideal.div_coe (by norm_num : (4 : ℝ) ≠ 0)]

end Cert.LibQuarter

end
-- ==== Proof.MeanLinear.lean ====
/-
  The mean of four layer embeddings followed by a linear head, as one function of the arrays.

  For node features x and three propagated layers h1, h2, h3, all of shape [a, 128], a weight W of shape [128, 64] and a
  bias b of length 64, the entry (p, e) of the result is

      Σ_k ((((x(p,k) + h1(p,k)) + h2(p,k)) + h3(p,k)) · ¼) · W(k,e)  +  b(e),

  the four layers summed from the left. One program multiplies the layer sum by the f32 word of 1/4 and the other
  divides it by the f32 word of 4; on the extended reals these are the same number for every value of the sum, the
  infinities included, so nothing here assumes an entry finite.
-/
import Idealize.ShloMosaic.PureOps.Ideal
import Idealize.ShloMosaic.Lib.ValueIdx
import proofs.«182042_j11836929868661_1_alg».proof.Proof.LibQuarter

noncomputable section

namespace Cert.MeanLinear

open Idealize.ShloMosaic Idealize.ShloMosaic.ValueIdx

variable {a : ℕ}

/-- The four layers at (p, k), summed from the left. -/
def layerSum (x h1 h2 h3 : (⟨2, ![a, 128]⟩ : Shape).Idx → EReal) (p : Fin a) (k : Fin 128) : EReal :=
  ((x (ix2 p k) + h1 (ix2 p k)) + h2 (ix2 p k)) + h3 (ix2 p k)

/-- The averaged embedding at (p, k): the layer sum times the f32 word of 1/4. -/
def meanAt (x h1 h2 h3 : (⟨2, ![a, 128]⟩ : Shape).Idx → EReal) (p : Fin a) (k : Fin 128) : EReal :=
  layerSum x h1 h2 h3 p k * Ideal.ofBits .f32 0x3E800000#32

/-- The layer sum divided by the f32 word of 4 is the same averaged embedding, whatever the sum's value. -/
theorem layerSum_div_four (x h1 h2 h3 : (⟨2, ![a, 128]⟩ : Shape).Idx → EReal) (p : Fin a) (k : Fin 128) :
    Ideal.div (layerSum x h1 h2 h3 p k) (Ideal.ofBits .f32 0x40800000#32) = meanAt x h1 h2 h3 p k :=
  Cert.LibQuarter.div_four_eq_mul_quarter _

/-- The head at (p, e): row p of the averaged embedding against column e of the weight, plus the bias's entry e. -/
def headAt (x h1 h2 h3 : (⟨2, ![a, 128]⟩ : Shape).Idx → EReal) (w : (⟨2, ![128, 64]⟩ : Shape).Idx → EReal)
    (β : Fin 64 → EReal) (p : Fin a) (e : Fin 64) : EReal :=
  (∑ k : Fin 128, meanAt x h1 h2 h3 p k * w (ix2 k e)) + β e

/-- The head at (r, e) depends on row r of the four layers, column e of the weight and entry e of the bias only: where
    those agree with row p, column e and entry e of another family, the two heads agree. -/
theorem headAt_rows {a' : ℕ} (xb g1 g2 g3 : (⟨2, ![a', 128]⟩ : Shape).Idx → EReal)
    (x h1 h2 h3 : (⟨2, ![a, 128]⟩ : Shape).Idx → EReal) (w' w : (⟨2, ![128, 64]⟩ : Shape).Idx → EReal)
    (β' β : Fin 64 → EReal) (r : Fin a') (p : Fin a) (e : Fin 64)
    (e0 : ∀ k, xb (ix2 r k) = x (ix2 p k)) (e1 : ∀ k, g1 (ix2 r k) = h1 (ix2 p k))
    (e2 : ∀ k, g2 (ix2 r k) = h2 (ix2 p k)) (e3 : ∀ k, g3 (ix2 r k) = h3 (ix2 p k))
    (ew : ∀ k, w' (ix2 k e) = w (ix2 k e)) (eb : β' e = β e) :
    headAt xb g1 g2 g3 w' β' r e = headAt x h1 h2 h3 w β p e := by
  unfold headAt meanAt layerSum
  simp only [e0, e1, e2, e3, ew, eb]

/-- The whole result: the head at every node and output feature. -/
def head (x h1 h2 h3 : (⟨2, ![100000, 128]⟩ : Shape).Idx → EReal) (w : (⟨2, ![128, 64]⟩ : Shape).Idx → EReal)
    (b : (⟨1, ![64]⟩ : Shape).Idx → EReal) : (⟨2, ![100000, 64]⟩ : Shape).Idx → EReal :=
  fun i => headAt x h1 h2 h3 w (fun e => b (ix1 e)) (i 0) (i 1)

theorem head_apply (x h1 h2 h3 : (⟨2, ![100000, 128]⟩ : Shape).Idx → EReal) (w : (⟨2, ![128, 64]⟩ : Shape).Idx → EReal)
    (b : (⟨1, ![64]⟩ : Shape).Idx → EReal) (p : Fin 100000) (e : Fin 64) :
    head x h1 h2 h3 w b (ix2 p e) = headAt x h1 h2 h3 w (fun e => b (ix1 e)) p e := rfl

end Cert.MeanLinear

end
-- ==== Proof.RefValue.lean ====
/-
  The reference's result is the head of the averaged embedding.

  Read one operation at a time, the reference adds the three propagated layers to the node features from the left,
  divides every entry of the sum by the f32 word of 4, contracts the rows of the quotient with the columns of the weight,
  and adds the bias laid along the rows. Its entry (p, e) is therefore Σ_k (sum(p,k) / 4) · W(k,e) + b(e), and the
  quotient by 4 is the product with 1/4 on every extended real: the function `Cert.MeanLinear.head` of the node
  features, the three layers as the reference computes them, the weight and the bias.
-/
import proofs.«182042_j11836929868661_1_alg».proof.Proof.RefRead
import proofs.«182042_j11836929868661_1_alg».proof.Proof.MeanLinear

noncomputable section

namespace Cert.ReferenceIdeal.RefValue

open Cert.ReferenceIdeal Cert.ReferenceIdeal.ReadP Idealize.ShloMosaic Idealize.ShloMosaic.ValueIdx Cert.MeanLinear

/-- At output (p, e) and contracted coordinate k the product reads the averaged embedding at (p, k) -/
theorem lhs_at (p : Fin 100000) (e : Fin 64) (k : Fin 128) : lidx_main_v73 (ix2 p e) k = ix2 p k :=
  funext fun ax => Fin.ext (by match ax with | ⟨0, _⟩ => rfl | ⟨1, _⟩ => rfl)

/-- and the weight at (k, e). -/
theorem rhs_at (p : Fin 100000) (e : Fin 64) (k : Fin 128) : ridx_main_v73 (ix2 p e) k = ix2 k e :=
  funext fun ax => Fin.ext (by match ax with | ⟨0, _⟩ => rfl | ⟨1, _⟩ => rfl)

/-- The bias laid along the rows reads its entry e at (p, e). -/
theorem bias_at (p : Fin 100000) (e : Fin 64) : idx_main_v74 (idx_main_v75 (ix2 p e)) = ix1 e :=
  funext fun ax => Fin.ext (by match ax with | ⟨0, _⟩ => rfl)

/-- The reference's last stage is the head of the node features and the reference's three layers. -/
theorem result_eq (x0 : (⟨S100000x128, .f32⟩ : BufTy).Contents (Elt Ideal)) (x1 : (⟨S128x64, .f32⟩ : BufTy).Contents (Elt Ideal))
    (x2 : (⟨S64, .f32⟩ : BufTy).Contents (Elt Ideal)) (x3 : (⟨S2x625000, .i32⟩ : BufTy).Contents (Elt Ideal)) :
    val_main_v76 (F := Ideal) x0 x1 x2 x3
      = head x0 (val_main_v41 (F := Ideal) x0 x3) (val_main_v55 (F := Ideal) x0 x3) (val_main_v69 (F := Ideal) x0 x3) x1 x2 := by
  funext i
  obtain ⟨p, e, rfl⟩ : ∃ (p : Fin 100000) (e : Fin 64), i = ix2 p e := ⟨i 0, i 1, eq_ix2 i⟩
  rw [head_apply, val_main_v76_apply, val_main_v73_apply, val_main_v75_apply, val_main_v74_apply, bias_at]
  unfold headAt
  refine congrArg (· + x2 (ix1 e)) (Finset.sum_congr rfl fun k _ => ?_)
  rw [lhs_at, rhs_at, val_main_v72_apply, val_main_v71_apply, val_main_cst_16_apply, val_main_v70_apply, val_main_v56_apply,
    val_main_v42_apply]
  exact congrArg (· * x1 (ix2 k e))
    (layerSum_div_four x0 (val_main_v41 (F := Ideal) x0 x3) (val_main_v55 (F := Ideal) x0 x3) (val_main_v69 (F := Ideal) x0 x3) p k)

end Cert.ReferenceIdeal.RefValue

end
-- ==== Proof.KernelBlocks.lean ====
/-
  The windows' blocks as rows of their arrays.

  The grid has 50 points. At point t the four row windows (node features and the three layers) and the output window
  are at block (t, 0) — rows 2000·t … 2000·t + 1999 of their arrays — and the weight's and the bias row's windows at
  block (0, 0), the whole array. A block's entry at coordinate y on an axis is the array's entry at
  (block index) · (block size) + y there.
-/
import proofs.«182042_j11836929868661_1_alg».proof.Proof.Gen.KernelIdeal.Value
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

theorem hz : (![0, 0] : Fin 2 → Nat) = fun _ => 0 := funext fun a => by fin_cases a <;> rfl

/-- The index maps over the grid: at point t the row windows and the output are at block (t, 0), the weight and the
    bias row at block (0, 0). -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each window's block as rows of its array -/

/-- Row r of the node features' block at point t is row 2000·t + r of the node features. -/
theorem rows0 (c : Dev nD) (t : Fin cfg0.N) (r : Fin 2000) (k : Fin 128) (p : Fin 100000) (hp : p.val = 2000 * t.val + r.val) :
    (iblk m c 0 t : Vec Ideal S2000x128 .f32) (ix2 r k) = V m c main_arg0 (ix2 p k) := by
  obtain ⟨f0, f1, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 2000 + 1 * r.val = p.val; rw [f0, hp]; omega
  | ⟨1, _⟩ => show win0_0.index t (1 : Fin 2) * 128 + 1 * k.val = k.val; rw [f1]; omega

/-- The same for the first layer, -/
theorem rows1 (c : Dev nD) (t : Fin cfg0.N) (r : Fin 2000) (k : Fin 128) (p : Fin 100000) (hp : p.val = 2000 * t.val + r.val) :
    (iblk m c 1 t : Vec Ideal S2000x128 .f32) (ix2 r k) = V m c main_v41 (ix2 p k) := by
  obtain ⟨-, -, f0, f1, -⟩ := idx_facts t
  unfold iblk
  rw [View.read_apply]
  show V m c main_v41 _ = V m c main_v41 _
  refine congrArg (V m c main_v41) (funext fun a => Fin.ext ?_)
  match a with
  | ⟨0, _⟩ => show win0_1.index t (0 : Fin 2) * 2000 + 1 * r.val = p.val; rw [f0, hp]; omega
  | ⟨1, _⟩ => show win0_1.index t (1 : Fin 2) * 128 + 1 * k.val = k.val; rw [f1]; omega

/-- the second -/
theorem rows2 (c : Dev nD) (t : Fin cfg0.N) (r : Fin 2000) (k : Fin 128) (p : Fin 100000) (hp : p.val = 2000 * t.val + r.val) :
    (iblk m c 2 t : Vec Ideal S2000x128 .f32) (ix2 r k) = V m c main_v54 (ix2 p k) := by
  obtain ⟨-, -, -, -, f0, f1, -⟩ := idx_facts t
  unfold iblk
  rw [View.read_apply]
  show V m c main_v54 _ = V m c main_v54 _
  refine congrArg (V m c main_v54) (funext fun a => Fin.ext ?_)
  match a with
  | ⟨0, _⟩ => show win0_2.index t (0 : Fin 2) * 2000 + 1 * r.val = p.val; rw [f0, hp]; omega
  | ⟨1, _⟩ => show win0_2.index t (1 : Fin 2) * 128 + 1 * k.val = k.val; rw [f1]; omega

/-- and the third. -/
theorem rows3 (c : Dev nD) (t : Fin cfg0.N) (r : Fin 2000) (k : Fin 128) (p : Fin 100000) (hp : p.val = 2000 * t.val + r.val) :
    (iblk m c 3 t : Vec Ideal S2000x128 .f32) (ix2 r k) = V m c main_v67 (ix2 p k) := by
  obtain ⟨-, -, -, -, -, -, f0, f1, -⟩ := idx_facts t
  unfold iblk
  rw [View.read_apply]
  show V m c main_v67 _ = V m c main_v67 _
  refine congrArg (V m c main_v67) (funext fun a => Fin.ext ?_)
  match a with
  | ⟨0, _⟩ => show win0_3.index t (0 : Fin 2) * 2000 + 1 * r.val = p.val; rw [f0, hp]; omega
  | ⟨1, _⟩ => show win0_3.index t (1 : Fin 2) * 128 + 1 * k.val = k.val; rw [f1]; omega

/-- The weight's block at every point is the whole weight. -/
theorem weight_block (c : Dev nD) (t : Fin cfg0.N) (k : Fin 128) (e : Fin 64) :
    (iblk m c 4 t : Vec Ideal S128x64 .f32) (ix2 k e) = V m c main_arg1 (ix2 k e) := by
  obtain ⟨-, -, -, -, -, -, -, -, f0, f1, -⟩ := idx_facts t
  unfold iblk
  rw [View.read_apply]
  show V m c main_arg1 _ = V m c main_arg1 _
  refine congrArg (V m c main_arg1) (funext fun a => Fin.ext ?_)
  match a with
  | ⟨0, _⟩ => show win0_4.index t (0 : Fin 2) * 128 + 1 * k.val = k.val; rw [f0]; omega
  | ⟨1, _⟩ => show win0_4.index t (1 : Fin 2) * 64 + 1 * e.val = e.val; rw [f1]; omega

/-- The bias row's block at every point is the whole row. -/
theorem bias_block (c : Dev nD) (t : Fin cfg0.N) (e : Fin 64) :
    (iblk m c 5 t : Vec Ideal S1x64 .f32) (ix2 (0 : Fin 1) e) = V m c main_v68 (ix2 (0 : Fin 1) e) := by
  obtain ⟨-, -, -, -, -, -, -, -, -, -, f0, f1, -⟩ := idx_facts t
  unfold iblk
  rw [View.read_apply]
  show V m c main_v68 _ = V m c main_v68 _
  refine congrArg (V m c main_v68) (funext fun a => Fin.ext ?_)
  match a with
  | ⟨0, _⟩ => show win0_5.index t (0 : Fin 2) * 1 + 1 * 0 = 0; rw [f0]
  | ⟨1, _⟩ => show win0_5.index t (1 : Fin 2) * 64 + 1 * e.val = e.val; rw [f1]; omega

end Cert.KernelIdeal.Blocks

end
-- ==== Proof.LibColsMatmul.lean ====
/-
  Rows against columns: the plain matrix product read at an index, whatever the operands' float formats.

  For x of shape [a, n] and w of shape [n, b], the product contracting axis 1 of x with axis 0 of w has shape [a, b],
  and its entry (p, e) is the sum over k < n of x(p, k) * w(k, e). On the extended reals the matrix-unit product into a
  zero accumulator is exactly that sum — also when the operands are held in shorter float formats than the
  accumulator, a change of format being the identity there.
-/
import Idealize.ShloMosaic.PureOps.Ideal.Laws
import Idealize.ShloMosaic.Lib.ValueIdx

noncomputable section

namespace Cert.ColsMatmul

open Idealize.ShloMosaic Idealize.ShloMosaic.ValueIdx

variable {a b n : ℕ}

/-- The dimension numbers "contract axis 1 of the left operand with axis 0 of the right, no batch axis". -/
abbrev colsDims (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, n]⟩ ⟨2, ![n, b]⟩ ⟨2, ![a, b]⟩ [1] [0] [0] [1] [] [])

/-- The left operand's index at output (p, e) and contraction index q: row p, -/
theorem lhs_row (i : (⟨2, ![a, b]⟩ : Shape).Idx) (q : (colsDims wf).contr.Idx) :
    ((colsDims wf).lhsIdx i q 0).val = (i 0).val := by
  unfold DotDims.lhsIdx
  rw [dif_neg (show ¬(0 : Fin (⟨2, ![a, n]⟩ : Shape).rank) ∈ (colsDims wf).lhsBatch from List.not_mem_nil),
    dif_pos (show (0 : Fin (⟨2, ![a, n]⟩ : Shape).rank) ∈ (colsDims wf).lhsNonContracting from List.mem_singleton.mpr rfl)]
  rfl
/-- column q. -/
theorem lhs_col (i : (⟨2, ![a, b]⟩ : Shape).Idx) (q : (colsDims wf).contr.Idx) :
    ((colsDims wf).lhsIdx i q 1).val = (q ⟨0, Nat.one_pos⟩).val :=
  (colsDims wf).lhsIdx_val_of_single rfl i q
/-- The right operand's: row q, -/
theorem rhs_row (i : (⟨2, ![a, b]⟩ : Shape).Idx) (q : (colsDims wf).contr.Idx) :
    ((colsDims wf).rhsIdx i q 0).val = (q ⟨0, Nat.one_pos⟩).val :=
  (colsDims wf).rhsIdx_val_of_single rfl i q
/-- column e. -/
theorem rhs_col (i : (⟨2, ![a, b]⟩ : Shape).Idx) (q : (colsDims wf).contr.Idx) :
    ((colsDims wf).rhsIdx i q 1).val = (i 1).val := by
  unfold DotDims.rhsIdx
  rw [dif_neg (show ¬(1 : Fin (⟨2, ![n, b]⟩ : Shape).rank) ∈ (colsDims wf).rhsBatch from List.not_mem_nil),
    dif_pos (show (1 : Fin (⟨2, ![n, b]⟩ : Shape).rank) ∈ (colsDims wf).rhsNonContracting from List.mem_singleton.mpr rfl)]
  rfl

/-- The contraction's sum at (p, e), re-indexed by the one contracted coordinate: row p of x against column e of w. -/
theorem contraction_cols (x : (⟨2, ![a, n]⟩ : Shape).Idx → EReal) (w : (⟨2, ![n, b]⟩ : Shape).Idx → EReal) (p : Fin a) (e : Fin b) :
    ∑ q : (colsDims wf).contr.Idx, x ((colsDims wf).lhsIdx (ix2 p e) q) * w ((colsDims wf).rhsIdx (ix2 p e) q)
      = ∑ k : Fin n, x (ix2 p k) * w (ix2 k e) := by
  rw [← Equiv.sum_comp (contrEquiv1 (colsDims wf) n rfl rfl).symm]
  refine Finset.sum_congr rfl fun k _ => ?_
  have hk := contrEquiv1_symm_val (colsDims wf) n rfl rfl k
  have el : (colsDims wf).lhsIdx (ix2 p e) ((contrEquiv1 (colsDims wf) n rfl rfl).symm k) = ix2 p k := funext fun ax => Fin.ext (by
    match ax with
    | ⟨0, _⟩ => exact lhs_row wf _ _
    | ⟨1, _⟩ => exact (lhs_col wf _ _).trans hk)
  have er : (colsDims wf).rhsIdx (ix2 p e) ((contrEquiv1 (colsDims wf) n rfl rfl).symm k) = ix2 k e := funext fun ax => Fin.ext (by
    match ax with
    | ⟨0, _⟩ => exact (rhs_row wf _ _).trans hk
    | ⟨1, _⟩ => exact rhs_col wf _ _)
  rw [el, er]

/-- The matrix-unit product of an [a, n] and an [n, b] operand of any float formats into the zero accumulator is, at
    (p, e), the sum over k of x(p,k) * w(k,e); the dimension record may be any record equal to `colsDims`. -/
theorem cols_matmul {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) (p : Fin a) (e : Fin b) :
    FloatOps.matmul d none x w (constant ⟨2, ![a, b]⟩ .f32 0x00000000#32) (ix2 p e)
      = ∑ k : Fin n, x (ix2 p k) * w (ix2 k e) := by
  subst hd
  exact (Ideal.matmul_constant_zero_apply (colsDims wf) none x w (ix2 p e)).trans (contraction_cols wf x w p e)

end Cert.ColsMatmul

end
-- ==== Proof.KernelBody.lean ====
/-
  The kernel's body at an index.

  On a block of 2000 nodes the body adds the three layers' blocks to the node features' block from the left, multiplies
  every entry by the f32 word of 1/4, rounds the product and the weight to a shorter format (the identity on the
  extended reals), takes the matrix product into a zero accumulator and adds the bias row repeated along the block's
  rows. At (r, e) that is the head of the block's row r: Σ_k mean(r,k) · W(k,e) + b(0,e).
-/
import proofs.«182042_j11836929868661_1_alg».proof.Proof.Gen.KernelIdeal.Skeleton
import proofs.«182042_j11836929868661_1_alg».proof.Proof.LibColsMatmul
import proofs.«182042_j11836929868661_1_alg».proof.Proof.MeanLinear
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.MeanLinear

/-- The value the body stores, at row r and output feature e of the block. -/
theorem stored_apply (v0 v1 v4 v7 : Vec Ideal S2000x128 .f32) (v13 : Vec Ideal S128x64 .f32) (v16 : Vec Ideal S1x64 .f32)
    (r : Fin 2000) (e : Fin 64) :
    k0_pay1 (F := Ideal) v0 v1 v4 v7 v13 v16 (ix2 r e) = headAt v0 v1 v4 v7 v13 (fun e => v16 (ix2 (0 : Fin 1) e)) r e := by
  unfold k0_pay1
  simp only [shapeCast_self]
  refine (addf_apply _ _ _).trans ?_
  unfold headAt
  refine congrArg₂ (· + ·) ?_ ?_
  · refine (Cert.ColsMatmul.cols_matmul Facts₀.dot_S2000x128_S128x64_S2000x64_1_0_0_1_n_n_wf
      dot_S2000x128_S128x64_S2000x64_1_0_0_1_n_n rfl _ _ r e).trans ?_
    rfl
  · exact broadcastTo_1b_ab_apply _ _ r e

end Cert.KernelIdeal.Body

end
-- ==== Proof.KernelValue.lean ====
/-
  From the blocks to the array: what the kernel's result array holds after the run.

  At grid point t the body's inputs are rows 2000·t … 2000·t + 1999 of the node features and the three layers, the
  whole weight and the whole bias row, so the value it stores at row r of its block is the head of row 2000·t + r of
  the arrays the region finds. The output's block at point t is those same rows, and every row lies in exactly one
  block (row p in the block of point p / 2000): the result array ends holding the head at every node and output
  feature.
-/
import proofs.«182042_j11836929868661_1_alg».proof.Proof.KernelBlocks
import proofs.«182042_j11836929868661_1_alg».proof.Proof.KernelBody
import Idealize.ShloMosaic.Lib.Pipeline.Value

noncomputable section

namespace Cert.KernelIdeal.Result

open Cert.KernelIdeal Cert.KernelIdeal.Gen Idealize.ShloMosaic Idealize.ShloMosaic.TcCoe Idealize.SL.Sem
open Idealize.ShloMosaic.Pipeline (Dat)
open Idealize.ShloMosaic.ValueIdx Cert.MeanLinear Cert.KernelIdeal.Blocks

variable (m : (ℓ : Loc nD τ sig) → Buf (Elt Ideal) ℓ) (ρ : Dev nD → PrngReg)

/-! ## What a point stores, as the head of the arrays' row -/

/-- For blocks that are rows 2000·tv … of four arrays, a whole weight and a bias row: the body's stored value at index j
    of the block is the head at the array index i in the same column whose row is 2000·tv + j's row. -/
theorem stored_at (x0 x1 x2 x3 : Vec Ideal S2000x128 .f32) (x4 : Vec Ideal S128x64 .f32) (x5 : Vec Ideal S1x64 .f32)
    (X H1 H2 H3 : S100000x128.Idx → EReal) (W : S128x64.Idx → EReal) (β : Fin 64 → EReal) (tv : ℕ)
    (e0 : ∀ (r : Fin 2000) (k : Fin 128) (p : Fin 100000), p.val = 2000 * tv + r.val → x0 (ix2 r k) = X (ix2 p k))
    (e1 : ∀ (r : Fin 2000) (k : Fin 128) (p : Fin 100000), p.val = 2000 * tv + r.val → x1 (ix2 r k) = H1 (ix2 p k))
    (e2 : ∀ (r : Fin 2000) (k : Fin 128) (p : Fin 100000), p.val = 2000 * tv + r.val → x2 (ix2 r k) = H2 (ix2 p k))
    (e3 : ∀ (r : Fin 2000) (k : Fin 128) (p : Fin 100000), p.val = 2000 * tv + r.val → x3 (ix2 r k) = H3 (ix2 p k))
    (e4 : ∀ (k : Fin 128) (e : Fin 64), x4 (ix2 k e) = W (ix2 k e))
    (e5 : ∀ e : Fin 64, x5 (ix2 (0 : Fin 1) e) = β e)
    (j : S2000x64.Idx) (i : S100000x64.Idx) (hrow : (i 0).val = 2000 * tv + (j 0).val) (hcol : (i 1).val = (j 1).val) :
    k0_pay1 (F := Ideal) x0 x1 x2 x3 x4 x5 j = headAt X H1 H2 H3 W β (i 0) (i 1) := by
  obtain ⟨r, e, rfl⟩ : ∃ (r : Fin 2000) (e : Fin 64), j = ix2 r e := ⟨j 0, j 1, eq_ix2 j⟩
  obtain ⟨p, e', rfl⟩ : ∃ (p : Fin 100000) (e' : Fin 64), i = ix2 p e' := ⟨i 0, i 1, eq_ix2 i⟩
  obtain rfl : e' = e := Fin.ext hcol
  exact (Body.stored_apply x0 x1 x2 x3 x4 x5 r e').trans
    (headAt_rows x0 x1 x2 x3 X H1 H2 H3 x4 W (fun e => x5 (ix2 (0 : Fin 1) e)) β r p e'
      (fun k => e0 r k p hrow) (fun k => e1 r k p hrow) (fun k => e2 r k p hrow) (fun k => e3 r k p hrow)
      (fun k => e4 k e') (e5 e'))

/-! ## The array -/

/-- The head of the arrays the region finds, at every node and output feature. -/
def result (c : Dev nD) : S100000x64.Idx → EReal := fun i =>
  headAt (a := 100000) (V m c main_arg0) (V m c main_v41) (V m c main_v54) (V m c main_v67) (V m c main_arg1)
    (fun e => V m c main_v68 (ix2 (0 : Fin 1) e)) (i 0) (i 1)

/-- What point t writes back is block t of `result`. -/
theorem flushed_eq (c : Dev nD) (t : Fin cfg0.N) :
    (dats m 0 c).flushed 6 t = ((cfg0.win 6).blk t).view.read (Elt Ideal) (result m c) := by
  obtain ⟨-, -, -, -, -, -, -, -, -, -, -, -, f0, f1⟩ := idx_facts t
  show (cfg0.win 6).cut (grid0.coords t) ((dats m 0 c).after 6 t) = _
  rw [after0_6]
  unfold out0_6
  rw [View.canon_unit_zero hz]
  simp only [View.ld_unit_zero (S := S2000x128) hz, View.ld_unit_zero (S := S128x64) hz, View.ld_unit_zero (S := S1x64) hz]
  funext j
  show k0_pay1 (F := Ideal) (iblk m c 0 t) (iblk m c 1 t) (iblk m c 2 t) (iblk m c 3 t) (iblk m c 4 t) (iblk m c 5 t) j
    = result m c (((cfg0.win 6).blk t).view.emb j)
  exact stored_at (iblk m c 0 t) (iblk m c 1 t) (iblk m c 2 t) (iblk m c 3 t) (iblk m c 4 t) (iblk m c 5 t)
    (V m c main_arg0) (V m c main_v41) (V m c main_v54) (V m c main_v67) (V m c main_arg1)
    (fun e => V m c main_v68 (ix2 (0 : Fin 1) e)) t.val
    (rows0 m c t) (rows1 m c t) (rows2 m c t) (rows3 m c t) (weight_block m c t) (bias_block m c t)
    j (((cfg0.win 6).blk t).view.emb j)
    (by show win0_6.index t (0 : Fin 2) * 2000 + 1 * (j 0).val = 2000 * t.val + (j 0).val; rw [f0]; omega)
    (by show win0_6.index t (1 : Fin 2) * 64 + 1 * (j 1).val = (j 1).val; rw [f1]; omega)

/-- An index of the array is in point t's block iff each coordinate is in the block's range on its axis. -/
theorem mem_blk (t : Fin cfg0.N) (i : S100000x64.Idx) :
    i ∈ ((cfg0.win 6).blk t).view.set ↔ ∀ a : Fin 2, win0_6.index t a * S2000x64.size a ≤ (i a).val ∧ (i a).val < win0_6.index t a * S2000x64.size a + S2000x64.size a := by
  show i ∈ ((View.whole main_v69).slice (win0_6.rect t)).set ↔ _
  rw [View.set_slice_whole, Rect.mem_set_unit]
  exact Iff.rfl

/-- Every index is in some point's block: row p in the block of point p / 2000. -/
theorem cover (i : S100000x64.Idx) : ∃ t : Fin cfg0.N, (cfg0.win 6).flush t = true ∧ i ∈ ((cfg0.win 6).blk t).view.set := by
  have hN : cfg0.N = 50 := N_0
  have hi0 : (i 0).val < 100000 := (i 0).isLt
  have hi1 : (i 1).val < 64 := (i 1).isLt
  obtain ⟨t, ht⟩ : ∃ t : Fin cfg0.N, t.val = (i 0).val / 2000 := ⟨⟨(i 0).val / 2000, by rw [hN]; omega⟩, rfl⟩
  obtain ⟨-, -, -, -, -, -, -, -, -, -, -, -, f0, f1⟩ := idx_facts t
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; rw [f0, ht]; omega
  | ⟨1, _⟩ => show win0_6.index t (1 : Fin 2) * 64 ≤ (i 1).val ∧ (i 1).val < win0_6.index t (1 : Fin 2) * 64 + 64; rw [f1]; omega

/-- The result array after the run. -/
theorem final (c : Dev nD) : (dats m 0 c).arrAt 6 cfg0.N = result m c :=
  (dats m 0 c).arrAt_eq_of_cover 6 (result m c) (fun t _ => flushed_eq m c t) cover

/-- The run, read: the result array at `result`, the arguments unchanged. -/
theorem run : θ_run defs (onTc (τ := τ) (main (F := Ideal))) ⟨m, fun _ => 0, ρ⟩ fun r => ∀ c : Dev nD,
      r.2.mem ((c : Thread nD τ).loc main_v69) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Result

end
-- ==== Proof.LibAfterStages.lean ====
/-
  A straight line of host operations, read in stretches.

  The contents of a device's buffers after a list of host operations are a fold over the list. For a list that is two
  stretches one after the other, the fold is the second stretch's fold over the first's. A buffer that no operation of
  a stretch writes comes through that stretch unchanged; the tactic below proves it for a literal stretch by comparing
  the buffer with each operation's result buffer.
-/
import Idealize.ShloMosaic.Lib.StableHlo.Run

namespace Idealize.ShloMosaic.StableHlo

variable {τ : Topo} {sig : RefSig} {Val : EltTy → Type}

/-- The fold over two stretches is the second's over the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- 'kept_through [L]' closes a goal 'after L V b = V b' for a literal stretch L (given by the names that unfold it)
    none of whose operations writes the buffer b. -/
macro "kept_through" "[" ds:Lean.Parser.Tactic.simpLemma,* "]" : tactic =>
  `(tactic| (
    refine after_of_forall_not_mem _ _ (List.forall_iff_forall_mem.mp ?_)
    simp only [$ds,*, List.Forall, nullary_writes, unary_writes, binary_writes, ternary_writes, quaternary_writes,
      reshape_writes, nary_writes, Finset.mem_singleton]
    repeat' apply And.intro
    all_goals exact devRef_ne_of_ne (by decide)))

end Idealize.ShloMosaic.StableHlo
-- ==== Proof.RegionEntry.lean ====
/-
  The arrays the region finds.

  Before the region the kernel's host program computes, from the node features and the edge list, the symmetric
  in-degree normalisation of every edge and three rounds of gathering the previous layer at the edges' sources, scaling
  by the edge weight and summing at the edges' targets. The reference computes its three layers by the same operations
  in the same order, so each layer the region finds is the reference's stage of that layer, as a function of the node
  features and the edge list; nothing here looks inside a gather or a scatter-add. The sixth window's array is the bias
  laid out as one row.

  The host program is read in its three stretches: the operations up to the in-degree's reciprocal square root; the
  three operations of the selection "where the in-degree is positive, else zero"; and the rest. The second and third
  stretches are read from an arbitrary state of the buffers, so that each is compared with the reference's stages
  through the few buffers it reads.
-/
import proofs.«182042_j11836929868661_1_alg».proof.Proof.Gen.KernelIdeal.Frame
import proofs.«182042_j11836929868661_1_alg».proof.Proof.RefRead
import proofs.«182042_j11836929868661_1_alg».proof.Proof.LibAfterStages
import Idealize.ShloMosaic.Lib.StableHlo.Run
import Idealize.ShloMosaic.Lib.ValueIdx
import Idealize.ShloMosaic.Lib.ValueLayout

noncomputable section

namespace Cert.KernelIdeal.Entry

open Cert.KernelIdeal Cert.KernelIdeal.Gen Idealize.ShloMosaic Idealize.ShloMosaic.TcCoe Idealize.SL.Sem
open Idealize.ShloMosaic.StableHlo
open Cert.ReferenceIdeal.ReadP

variable (m : (ℓ : Loc nD τ sig) → Buf (Elt Ideal) ℓ) (c : Dev nD)

/-- The region-entry contents, stretch by stretch. -/
theorem entry_eq (b : Ref sig .tc) :
    V m c b = after hostOps0_2 (after hostOps0_1 (after hostOps0 (fun b => m (c, b)))) (Proc.devRef .tc b) := by
  show after (List.flatten [hostOps0, hostOps0_1, hostOps0_2]) (fun b => m (c, b)) (Proc.devRef .tc b) = _
  rw [List.flatten_cons, List.flatten_cons, List.flatten_cons, List.flatten_nil, List.append_nil, after_append, after_append]

/-! ## The first stretch: edge endpoints and the in-degree -/

/-- The edges' sources, -/
theorem sources : after hostOps0 (fun b => m (c, b)) (Proc.devRef .tc main_v1)
    = val_main_v1 (F := Ideal) (m ((c : Thread nD τ).loc main_arg3)) := by
  simp only [hostOps0]
  after_results_simp
  rfl

/-- their targets, -/
theorem targets : after hostOps0 (fun b => m (c, b)) (Proc.devRef .tc main_v3)
    = val_main_v3 (F := Ideal) (m ((c : Thread nD τ).loc main_arg3)) := by
  simp only [hostOps0]
  after_results_simp
  rfl

/-- where the in-degree is positive, -/
theorem degree_pos : after hostOps0 (fun b => m (c, b)) (Proc.devRef .tc main_v9)
    = val_main_v9 (F := Ideal) (m ((c : Thread nD τ).loc main_arg3)) := by
  simp only [hostOps0]
  after_results_simp
  rfl

/-- the reciprocal square root of the in-degree clamped at 1, -/
theorem degree_rsqrt : after hostOps0 (fun b => m (c, b)) (Proc.devRef .tc main_v12)
    = val_main_v12 (F := Ideal) (m ((c : Thread nD τ).loc main_arg3)) := by
  simp only [hostOps0]
  after_results_simp
  rfl

/-- the zero the selection falls back to, -/
theorem fallback : after hostOps0 (fun b => m (c, b)) (Proc.devRef .tc main_cst_3) = val_main_cst_3 (F := Ideal) := by
  simp only [hostOps0]
  after_results_simp
  rfl

/-- and the node features and the bias, untouched. -/
theorem features : after hostOps0 (fun b => m (c, b)) (Proc.devRef .tc main_arg0) = m ((c : Thread nD τ).loc main_arg0) := by
  kept_through [hostOps0]
theorem bias : after hostOps0 (fun b => m (c, b)) (Proc.devRef .tc main_arg2) = m ((c : Thread nD τ).loc main_arg2) := by
  kept_through [hostOps0]

/-! ## The second stretch: the selection -/

/-- From any state, the selection's result is the select of the three buffers it reads. -/
theorem selection (W : Valuation τ sig (Elt Ideal)) :
    after hostOps0_1 W (Proc.devRef .tc main_v13)
      = select (W (Proc.devRef .tc main_v9)) (W (Proc.devRef .tc main_v12))
          (broadcastInDim S100000 ![] bcast_S_S100000 (id (W (Proc.devRef .tc main_cst_3)))) := by
  simp only [hostOps0_1]
  after_results_simp
  rfl

/-- The selection writes none of the other buffers the rest reads. -/
theorem selection_keeps_sources (W : Valuation τ sig (Elt Ideal)) :
    after hostOps0_1 W (Proc.devRef .tc main_v1) = W (Proc.devRef .tc main_v1) := by kept_through [hostOps0_1]
theorem selection_keeps_targets (W : Valuation τ sig (Elt Ideal)) :
    after hostOps0_1 W (Proc.devRef .tc main_v3) = W (Proc.devRef .tc main_v3) := by kept_through [hostOps0_1]
theorem selection_keeps_features (W : Valuation τ sig (Elt Ideal)) :
    after hostOps0_1 W (Proc.devRef .tc main_arg0) = W (Proc.devRef .tc main_arg0) := by kept_through [hostOps0_1]
theorem selection_keeps_bias (W : Valuation τ sig (Elt Ideal)) :
    after hostOps0_1 W (Proc.devRef .tc main_arg2) = W (Proc.devRef .tc main_arg2) := by kept_through [hostOps0_1]

/-- The reciprocal square root of the in-degree where it is positive, zero elsewhere: the reference's stage. -/
theorem inv_sqrt_degree : after hostOps0_1 (after hostOps0 (fun b => m (c, b))) (Proc.devRef .tc main_v13)
    = val_main_v13 (F := Ideal) (m ((c : Thread nD τ).loc main_arg3)) := by
  rw [selection, degree_pos, degree_rsqrt, fallback]
  rfl

/-! ## The third stretch: the edge weights and the three rounds

Each round is read from any state of the buffers in which the edges' sources and targets, the node features and the
inverse square root of the in-degree are the reference's: the round's result is then the reference's stage. -/

set_option maxHeartbeats 4000000 in
/-- The first round: the node features gathered at the sources, scaled by the edge weight, summed at the targets. -/
theorem round1 (W : Valuation τ sig (Elt Ideal)) (x0 : (⟨S100000x128, .f32⟩ : BufTy).Contents (Elt Ideal))
    (x3 : (⟨S2x625000, .i32⟩ : BufTy).Contents (Elt Ideal))
    (h0 : W (Proc.devRef .tc main_arg0) = x0) (h1 : W (Proc.devRef .tc main_v1) = val_main_v1 (F := Ideal) x3)
    (h3 : W (Proc.devRef .tc main_v3) = val_main_v3 (F := Ideal) x3)
    (h13 : W (Proc.devRef .tc main_v13) = val_main_v13 (F := Ideal) x3) :
    after hostOps0_2 W (Proc.devRef .tc main_v41) = val_main_v41 (F := Ideal) x0 x3 := by
  simp only [hostOps0_2]
  after_results_simp
  rw [h0, h1, h3, h13]
  rfl

set_option maxHeartbeats 4000000 in
/-- The second round, of the first round's result. -/
theorem round2 (W : Valuation τ sig (Elt Ideal)) (x0 : (⟨S100000x128, .f32⟩ : BufTy).Contents (Elt Ideal))
    (x3 : (⟨S2x625000, .i32⟩ : BufTy).Contents (Elt Ideal))
    (h0 : W (Proc.devRef .tc main_arg0) = x0) (h1 : W (Proc.devRef .tc main_v1) = val_main_v1 (F := Ideal) x3)
    (h3 : W (Proc.devRef .tc main_v3) = val_main_v3 (F := Ideal) x3)
    (h13 : W (Proc.devRef .tc main_v13) = val_main_v13 (F := Ideal) x3) :
    after hostOps0_2 W (Proc.devRef .tc main_v54) = val_main_v55 (F := Ideal) x0 x3 := by
  simp only [hostOps0_2]
  after_results_simp
  rw [h0, h1, h3, h13]
  rfl

set_option maxHeartbeats 4000000 in
/-- The third round, of the second round's result. -/
theorem round3 (W : Valuation τ sig (Elt Ideal)) (x0 : (⟨S100000x128, .f32⟩ : BufTy).Contents (Elt Ideal))
    (x3 : (⟨S2x625000, .i32⟩ : BufTy).Contents (Elt Ideal))
    (h0 : W (Proc.devRef .tc main_arg0) = x0) (h1 : W (Proc.devRef .tc main_v1) = val_main_v1 (F := Ideal) x3)
    (h3 : W (Proc.devRef .tc main_v3) = val_main_v3 (F := Ideal) x3)
    (h13 : W (Proc.devRef .tc main_v13) = val_main_v13 (F := Ideal) x3) :
    after hostOps0_2 W (Proc.devRef .tc main_v67) = val_main_v69 (F := Ideal) x0 x3 := by
  simp only [hostOps0_2]
  after_results_simp
  rw [h0, h1, h3, h13]
  rfl

/-- The bias laid out as one row. -/
theorem bias_row_of (W : Valuation τ sig (Elt Ideal)) :
    after hostOps0_2 W (Proc.devRef .tc main_v68) = shapeCast S1x64 (W (Proc.devRef .tc main_arg2)) shapeCasts_S64_S1x64 := by
  simp only [hostOps0_2]
  after_results_simp
  rfl

/-! ## What the region finds -/

/-- The first layer the region finds is the reference's first layer of the same node features and edge list, -/
theorem layer1 : V m c main_v41
    = val_main_v41 (F := Ideal) (m ((c : Thread nD τ).loc main_arg0)) (m ((c : Thread nD τ).loc main_arg3)) := by
  rw [entry_eq]
  exact round1 _ _ _ ((selection_keeps_features _).trans (features m c)) ((selection_keeps_sources _).trans (sources m c))
    ((selection_keeps_targets _).trans (targets m c)) (inv_sqrt_degree m c)

/-- the second its second, -/
theorem layer2 : V m c main_v54
    = val_main_v55 (F := Ideal) (m ((c : Thread nD τ).loc main_arg0)) (m ((c : Thread nD τ).loc main_arg3)) := by
  rw [entry_eq]
  exact round2 _ _ _ ((selection_keeps_features _).trans (features m c)) ((selection_keeps_sources _).trans (sources m c))
    ((selection_keeps_targets _).trans (targets m c)) (inv_sqrt_degree m c)

/-- and the third its third. -/
theorem layer3 : V m c main_v67
    = val_main_v69 (F := Ideal) (m ((c : Thread nD τ).loc main_arg0)) (m ((c : Thread nD τ).loc main_arg3)) := by
  rw [entry_eq]
  exact round3 _ _ _ ((selection_keeps_features _).trans (features m c)) ((selection_keeps_sources _).trans (sources m c))
    ((selection_keeps_targets _).trans (targets m c)) (inv_sqrt_degree m c)

/-- The bias row the region finds reads the bias's entry e at (0, e). -/
theorem bias_row (e : Fin 64) :
    V m c main_v68 (ValueIdx.ix2 (0 : Fin 1) e) = m ((c : Thread nD τ).loc main_arg2) (ValueIdx.ix1 e) := by
  rw [entry_eq, bias_row_of, selection_keeps_bias, bias]
  exact ValueIdx.shapeCast_a_1a_apply _ _ (0 : Fin 1) e

end Cert.KernelIdeal.Entry

end
-- ==== Proof.Bridge.lean ====
/-
  The kernel's result as a function of its arguments.

  The result array ends holding the head of the arrays the region finds. The node features and the weight reach the
  region as launched; the three layers it finds are the reference's stages of the node features and the edge list; the
  bias row reads the bias's entry e at (0, e). So the result is the head of the arguments, with the reference's three
  layers: the same function the reference's last stage is.
-/
import proofs.«182042_j11836929868661_1_alg».proof.Proof.KernelValue
import proofs.«182042_j11836929868661_1_alg».proof.Proof.RegionEntry

noncomputable section

namespace Cert.KernelIdeal.Bridge

open Cert.KernelIdeal Cert.KernelIdeal.Gen Idealize.ShloMosaic Idealize.ShloMosaic.TcCoe Idealize.SL.Sem
open Idealize.ShloMosaic.ValueIdx Cert.MeanLinear

variable (m : (ℓ : Loc nD τ sig) → Buf (Elt Ideal) ℓ) (ρ : Dev nD → PrngReg)

/-- The head of the arguments, the three layers being the reference's stages of the node features and the edge list. -/
def value (c : Dev nD) : S100000x64.Idx → EReal :=
  head (m ((c : Thread nD τ).loc main_arg0))
    (Cert.ReferenceIdeal.ReadP.val_main_v41 (F := Ideal) (m ((c : Thread nD τ).loc main_arg0)) (m ((c : Thread nD τ).loc main_arg3)))
    (Cert.ReferenceIdeal.ReadP.val_main_v55 (F := Ideal) (m ((c : Thread nD τ).loc main_arg0)) (m ((c : Thread nD τ).loc main_arg3)))
    (Cert.ReferenceIdeal.ReadP.val_main_v69 (F := Ideal) (m ((c : Thread nD τ).loc main_arg0)) (m ((c : Thread nD τ).loc main_arg3)))
    (m ((c : Thread nD τ).loc main_arg1)) (m ((c : Thread nD τ).loc main_arg2))

/-- The head of the arrays the region finds is the head of the arguments. -/
theorem result_eq (c : Dev nD) : Cert.KernelIdeal.Result.result m c = value m c := by
  funext i
  show headAt (a := 100000) (V m c main_arg0) (V m c main_v41) (V m c main_v54) (V m c main_v67) (V m c main_arg1)
      (fun e => V m c main_v68 (ix2 (0 : Fin 1) e)) (i 0) (i 1)
    = headAt (a := 100000) (m ((c : Thread nD τ).loc main_arg0))
    (Cert.ReferenceIdeal.ReadP.val_main_v41 (F := Ideal) (m ((c : Thread nD τ).loc main_arg0)) (m ((c : Thread nD τ).loc main_arg3)))
    (Cert.ReferenceIdeal.ReadP.val_main_v55 (F := Ideal) (m ((c : Thread nD τ).loc main_arg0)) (m ((c : Thread nD τ).loc main_arg3)))
    (Cert.ReferenceIdeal.ReadP.val_main_v69 (F := Ideal) (m ((c : Thread nD τ).loc main_arg0)) (m ((c : Thread nD τ).loc main_arg3)))
    (m ((c : Thread nD τ).loc main_arg1)) (fun e => (m ((c : Thread nD τ).loc main_arg2)) (ix1 e)) (i 0) (i 1)
  rw [V_main_arg0 m c, V_main_arg1 m c, Cert.KernelIdeal.Entry.layer1 m c, Cert.KernelIdeal.Entry.layer2 m c,
    Cert.KernelIdeal.Entry.layer3 m c, funext (Cert.KernelIdeal.Entry.bias_row m c)]

/-- The run, read: the result array at the head of the arguments, the arguments unchanged. -/
theorem run : θ_run defs (onTc (τ := τ) (main (F := Ideal))) ⟨m, fun _ => 0, ρ⟩ fun r => ∀ c : Dev nD,
      r.2.mem ((c : Thread nD τ).loc main_v69) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_eq m c), (h c).2⟩) (Cert.KernelIdeal.Result.run m ρ)

end Cert.KernelIdeal.Bridge

end
-- ==== Proof.lean ====
/-
  Mean of four layer embeddings, then a linear head: the kernel against its reference, on the extended reals.

  Both programs compute, from the node features x and the edge list, the symmetric in-degree normalisation of the
  edges and three rounds of neighbourhood aggregation h1, h2, h3 (gather at the sources, scale by the edge weight, sum
  at the targets) by the same host operations in the same order. The kernel then takes blocks of 2000 nodes and stores
  ((((x + h1) + h2) + h3) · ¼) · W + b, with the product of the block and the weight taken after rounding both to a
  shorter format; the reference adds the layers one at a time as it produces them, divides by 4, multiplies by W and
  adds b. On the extended reals a change of format is the identity, a matrix product into a zero accumulator and a
  host contraction are the same finite sums, and x / 4 = x · ¼ for every x, the infinities included. So both results are

      out(p, e) = Σ_k ((((x(p,k) + h1(p,k)) + h2(p,k)) + h3(p,k)) · ¼) · W(k,e) + b(e),

  with no assumption that any entry is finite: the precondition is never opened.

  The modules: MeanLinear states that function and the quarter law; RefValue reads the reference's last stage as
  it; KernelBody reads the value the body stores at an index of its block; KernelBlocks reads each window's block as rows
  of its array; KernelValue takes the blocks to the whole result array; RegionEntry identifies the three layers the
  region finds with the reference's stages and reads the bias row; Bridge states the kernel's run at the function of
  the arguments. The ideal pass rewrote nothing, so the idealization claim is trivially true.
-/
import proofs.«182042_j11836929868661_1_alg».proof.Defs
import proofs.«182042_j11836929868661_1_alg».proof.Proof.Gen.Kernel
import proofs.«182042_j11836929868661_1_alg».proof.Proof.Gen.Kernel.Skeleton
import proofs.«182042_j11836929868661_1_alg».proof.Proof.Gen.Kernel.Launch
import proofs.«182042_j11836929868661_1_alg».proof.Proof.Gen.Kernel.Points
import proofs.«182042_j11836929868661_1_alg».proof.Proof.Gen.Kernel.Frame
import proofs.«182042_j11836929868661_1_alg».proof.Proof.Gen.KernelIdeal
import proofs.«182042_j11836929868661_1_alg».proof.Proof.Gen.KernelIdeal.Skeleton
import proofs.«182042_j11836929868661_1_alg».proof.Proof.Gen.KernelIdeal.Launch
import proofs.«182042_j11836929868661_1_alg».proof.Proof.Gen.KernelIdeal.Points
import proofs.«182042_j11836929868661_1_alg».proof.Proof.Gen.KernelIdeal.Frame
import proofs.«182042_j11836929868661_1_alg».proof.Proof.Gen.ReferenceIdeal
import proofs.«182042_j11836929868661_1_alg».proof.Proof.Gen.Pre_finite_inputs
import proofs.«182042_j11836929868661_1_alg».proof.Proof.Gen.KernelIdeal.Value
import proofs.«182042_j11836929868661_1_alg».proof.Proof.RefRun
import proofs.«182042_j11836929868661_1_alg».proof.Proof.RefRead
import proofs.«182042_j11836929868661_1_alg».proof.Proof.RefValue
import proofs.«182042_j11836929868661_1_alg».proof.Proof.Bridge
import Idealize.ShloMosaic.Adequacy
import Idealize.ShloMosaic.Init

noncomputable section

namespace Cert.Proof

open Idealize.ShloMosaic Idealize.SL.Sem

/-- The kernel as printed runs, and its arguments end unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories that agree on the arguments, the kernel's result array and the reference's result both end at the
    head of the arguments with the three propagated layers: the kernel's by its run read block by block, the reference's
    by its last stage read at an index. -/
theorem algebraic : Cert.algebraic_KernelIdeal_ReferenceIdeal := by
  intro m ρ m' ρ' _ hagree
  refine ⟨fun c => Cert.KernelIdeal.Bridge.value m c, Cert.KernelIdeal.Bridge.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v76_eq, Cert.ReferenceIdeal.RefValue.result_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
